-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x4096 : Shape := ⟨2, ![4096, 4096]⟩
abbrev S4096x1 : Shape := ⟨2, ![4096, 1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part1 {F : FTy → Type} [FloatOps F] (main_arg4 : FVec F S4096x1 .f32) (main_arg5 : FVec F S4096x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S4096 .f32) (main_arg1 : FVec F S4096x4096 .f32) (main_arg2 : FVec F S4096x4096 .f32) (main_arg3 : FVec F S4096 .f32) (main_arg4 : FVec F S4096x1 .f32) (main_arg5 : FVec F S4096x4096 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4096 : Shape := ⟨1, ![4096]⟩
abbrev S4096x4096 : Shape := ⟨2, ![4096, 4096]⟩
abbrev S4096x1 : Shape := ⟨2, ![4096, 1]⟩
abbrev S1x4096 : Shape := ⟨2, ![1, 4096]⟩
abbrev S128x4096 : Shape := ⟨2, ![128, 4096]⟩
abbrev S128x1 : Shape := ⟨2, ![128, 1]⟩
abbrev S128 : Shape := ⟨1, ![128]⟩

abbrev nBuf : Space → Nat
  | .hbm => 11
  | .vmem => 10
  | .smem => 0
  | _ => 0

abbrev bufTy : (tb : Table) → Fin (tcTables nBuf tb) → BufTy
  | .hbm, ⟨0, _⟩ => ⟨S4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x1, .f32⟩
  | .hbm, ⟨5, _⟩ => ⟨S4096x4096, .f32⟩
  | .hbm, ⟨6, _⟩ => ⟨S1x4096, .f32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S4096x1, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x1, .f32⟩
  | .local _ .vmem, ⟨9, _⟩ => ⟨S128x1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096_S1x4096 : S4096.ShapeCasts S1x4096
  shapeCasts_S4096x1_S4096 : S4096x1.ShapeCasts S4096
  inb_S128x4096_S128x4096_0_0 : ∀ a, (![0, 0] : Fin 2 → Nat) a + S128x4096.size a ≤ S128x4096.size a
  h_S128x4096 : 0 < S128x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  reduces_S128x4096_S128 : S128x4096.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)

variable [Facts₀]

abbrev win0_0 : Pipeline.Window sig grid0 :=
  Pipeline.Window.ofSpec (Memref.whole main_arg2) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096 : Shape := ⟨1, ![4096]⟩
abbrev S4096x4096 : Shape := ⟨2, ![4096, 4096]⟩
abbrev S4096x1 : Shape := ⟨2, ![4096, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x1, .f32⟩
  | .hbm, ⟨5, _⟩ => ⟨S4096x4096, .f32⟩
  | .hbm, ⟨6, _⟩ => ⟨S4096x4096, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  dot_S4096x4096_S4096x1_S4096x1_1_0_0_1_n_n_wf : DotDims.WF S4096x4096 S4096x1 S4096x1 [1] [0] [0] [1] [] []

variable [Facts₀]

def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

class Facts : Prop extends Facts₀ where

variable [Facts]
-- ==== Proof.RowMessage.lean ====
/-
  The message one edge of the graph sends, as a function of the data that edge sees.

  Edge `r` owns row `r` of three 4096 × 4096 matrices — the adjacency mask, the input weights and the
  expander that copies log-likelihood ratios onto edges — and shares with every other edge two vectors of
  length 4096: the incoming messages `input` and the weighted ratios `wllr k = llrWeight k · llr k`.  Its
  message is

      half · ( Σ_k (mask r k · weight r k) · input k  +  Σ_k expander r k · wllr k ).

  Both programs compute exactly these two sums over `k`; they differ only in which of the two they write
  first.  Addition of extended reals is commutative with no side condition, so no finiteness of the inputs is
  used anywhere.
-/
import Idealize.ShloMosaic.PureOps.Ideal
import Idealize.ShloMosaic.Lib.ValueIdx

noncomputable section

namespace Cert.EdgeMessage

open Idealize.ShloMosaic Idealize.ShloMosaic.ValueIdx

/-- One edge's message from its own row of the three matrices and the two shared vectors. -/
def message (half : EReal) (maskRow weightRow expandRow input wllr : Fin 4096 → EReal) : EReal :=
  half * ((∑ k : Fin 4096, (maskRow k * weightRow k) * input k) + (∑ k : Fin 4096, expandRow k * wllr k))

/-- The same message with the expanded ratios written first: the two sums commute. -/
theorem message_swap (half : EReal) (maskRow weightRow expandRow input wllr : Fin 4096 → EReal) :
    half * ((∑ k : Fin 4096, expandRow k * wllr k) + (∑ k : Fin 4096, (maskRow k * weightRow k) * input k))
      = message half maskRow weightRow expandRow input wllr := by
  unfold message
  rw [add_comm]

/-- The row an entry `(r, 0)` of the [4096, 1] result belongs to. -/
def rowOf (i : (⟨2, ![4096, 1]⟩ : Shape).Idx) : Fin 4096 := ⟨(i 0).val, (i 0).isLt⟩

/-- The weighted ratio of variable `k`: its log-likelihood ratio times its weight, the weights a [4096, 1] column. -/
def weightedRatio (llrWeight : (⟨2, ![4096, 1]⟩ : Shape).Idx → EReal) (llr : (⟨1, ![4096]⟩ : Shape).Idx → EReal)
    (k : Fin 4096) : EReal :=
  llrWeight (ix2 k (0 : Fin 1)) * llr (ix1 k)

/-- The whole [4096, 1] result: entry `(r, 0)` is edge `r`'s message, read off the six argument arrays. -/
def messages (half : EReal) (input : (⟨1, ![4096]⟩ : Shape).Idx → EReal)
    (weight mask : (⟨2, ![4096, 4096]⟩ : Shape).Idx → EReal) (llr : (⟨1, ![4096]⟩ : Shape).Idx → EReal)
    (llrWeight : (⟨2, ![4096, 1]⟩ : Shape).Idx → EReal) (expander : (⟨2, ![4096, 4096]⟩ : Shape).Idx → EReal) :
    (⟨2, ![4096, 1]⟩ : Shape).Idx → EReal :=
  fun i => message half (fun k => mask (ix2 (rowOf i) k)) (fun k => weight (ix2 (rowOf i) k))
    (fun k => expander (ix2 (rowOf i) k)) (fun k => input (ix1 k)) (weightedRatio llrWeight llr)

end Cert.EdgeMessage

end
-- ==== Proof.ReferenceRows.lean ====
/-
  The reference computes every edge's message.

  Its result at `(r, 0)` is `half · (expander-sum + masked-sum)`: the product of the expander with the column
  `llrWeight · llr`, plus the product of `mask · weight` with the column `input`, each a sum over the contracted
  index `k`.  Reading the run one operation at a time and swapping the two sums gives the edge's message.
-/
import proofs.«124301_j31817117729482_1_alg».proof.Proof.Gen.ReferenceIdeal.Read
import proofs.«124301_j31817117729482_1_alg».proof.Proof.RowMessage

noncomputable section

namespace Cert.EdgeMessage

open Cert.ReferenceIdeal Cert.ReferenceIdeal.Read Idealize.ShloMosaic Idealize.ShloMosaic.ValueIdx

/-- The matrix entry the contraction reads on the left at step `k` is `(r, k)`. -/
theorem lidx_v5 (i : S4096x1.Idx) (k : Fin 4096) : lidx_main_v5 i k = ix2 (rowOf i) k :=
  funext fun a => by match a with | ⟨0, _⟩ => rfl | ⟨1, _⟩ => rfl

theorem lidx_v2 (i : S4096x1.Idx) (k : Fin 4096) : lidx_main_v2 i k = ix2 (rowOf i) k :=
  funext fun a => by match a with | ⟨0, _⟩ => rfl | ⟨1, _⟩ => rfl

/-- The column entry it reads on the right is `(k, 0)`: the result has one column. -/
theorem ridx_v5 (i : S4096x1.Idx) (k : Fin 4096) : ridx_main_v5 i k = ix2 k (0 : Fin 1) :=
  funext fun a => by
    match a with
    | ⟨0, _⟩ => rfl
    | ⟨1, _⟩ => exact Fin.ext (by have h : (i 1).val < 1 := (i 1).isLt; show (i 1).val = 0; omega)

theorem ridx_v2 (i : S4096x1.Idx) (k : Fin 4096) : ridx_main_v2 i k = ix2 k (0 : Fin 1) :=
  funext fun a => by
    match a with
    | ⟨0, _⟩ => rfl
    | ⟨1, _⟩ => exact Fin.ext (by have h : (i 1).val < 1 := (i 1).isLt; show (i 1).val = 0; omega)

/-- A vector spread down a column is read back at the column's row. -/
theorem idx_v3 (k : Fin 4096) : idx_main_v3 (ix2 k (0 : Fin 1)) = ix1 k :=
  funext fun a => by match a with | ⟨0, _⟩ => rfl

theorem idx_v1 (k : Fin 4096) : idx_main_v1 (ix2 k (0 : Fin 1)) = ix1 k :=
  funext fun a => by match a with | ⟨0, _⟩ => rfl

/-- The reference's result array is the array of messages. -/
theorem reference_messages (x0 : (⟨S4096, .f32⟩ : BufTy).Contents (Elt Ideal)) (x1 x2 : (⟨S4096x4096, .f32⟩ : BufTy).Contents (Elt Ideal))
    (x3 : (⟨S4096, .f32⟩ : BufTy).Contents (Elt Ideal)) (x4 : (⟨S4096x1, .f32⟩ : BufTy).Contents (Elt Ideal))
    (x5 : (⟨S4096x4096, .f32⟩ : BufTy).Contents (Elt Ideal)) :
    val_main_v8 (F := Ideal) x0 x1 x2 x3 x4 x5 = messages (Ideal.ofBits .f32 0x3F000000#32) x0 x1 x2 x3 x4 x5 := by
  funext i
  rw [val_main_v8_apply, val_main_v7_apply, val_main_cst_apply, val_main_v6_apply, val_main_v5_apply, val_main_v2_apply]
  simp only [val_main_v4_apply, val_main_v3_apply, val_main_v0_apply, val_main_v1_apply, lidx_v5, lidx_v2, ridx_v5, ridx_v2,
    idx_v3, idx_v1, Ideal.mulf_def, Ideal.addf_def, Ideal.ofBits_def]
  exact message_swap _ _ _ _ _ _

end Cert.EdgeMessage

end
-- ==== Proof.BlockRows.lean ====
/-
  One grid point's block of the kernel's result, entry by entry.

  A grid point holds 128 rows of each matrix, full width, and the two shared vectors as [1, 4096] rows.  The
  body multiplies mask and weight entrywise, multiplies by the input row spread over the 128 rows, and adds up
  each row over its 4096 lanes; it does the same with the expander block and the weighted-ratio row; it adds
  the two columns of row sums and halves.  So entry `(p, 0)` of the block it leaves is the message of the
  block's row `p`: a lane sum is a plain sum over the lane index, and a [1, 4096] row spread over 128 rows is
  read back at its lane.
-/
import proofs.«124301_j31817117729482_1_alg».proof.Proof.Gen.KernelIdeal.Value
import proofs.«124301_j31817117729482_1_alg».proof.Proof.RowMessage
import Idealize.ShloMosaic.Lib.ValueLayout
import Idealize.ShloMosaic.PureOps.Ideal.Laws

noncomputable section

namespace Cert.EdgeMessage

open Cert.KernelIdeal Cert.KernelIdeal.Gen Idealize.ShloMosaic Idealize.ShloMosaic.ValueIdx

/-- Adding up a [128, 4096] block along its lanes leaves, at row `p`, the sum of that row's 4096 entries. -/
theorem lane_sum (src : FVec Ideal S128x4096 .f32) (p : Fin 128) :
    multiReduction .add [1] S128 src 0x00000000#32 reduces_S128x4096_S128 (.inl rfl) rfl (ix1 p)
      = ∑ k : Fin 4096, src (ix2 p k) := by
  refine (Ideal.multiReduction_add_single src 0x00000000#32 reduces_S128x4096_S128 (.inl rfl) rfl (ix1 p)).trans ?_
  show ∑ k : Fin 4096, src (reduces_S128x4096_S128.lift (ix1 p) k) = _
  refine Finset.sum_congr rfl fun k _ => congrArg src ?_
  funext a
  match a with
  | ⟨0, _⟩ => rfl
  | ⟨1, _⟩ => rfl

/-- A [1, 4096] row, cast to its own shape and spread over 128 rows, reads at `(p, k)` the row's lane `k`. -/
theorem spread_row (row : FVec Ideal S1x4096 .f32) (p : Fin 128) (k : Fin 4096) :
    broadcastTo S128x4096 (shapeCast S1x4096 row shapeCasts_S1x4096_S1x4096) broadcasts_S1x4096_S128x4096 (ix2 p k)
      = row (ix2 (0 : Fin 1) k) := by
  rw [shapeCast_self]
  exact broadcastTo_1b_ab_apply row broadcasts_S1x4096_S128x4096 p k

/-- Entry `(p, 0)` of the block a grid point leaves is the message of row `p` of the loaded blocks. -/
theorem block_entry (P0 P1 : Vec Ideal S128x4096 .f32) (P2 : Vec Ideal S1x4096 .f32) (P3 : Vec Ideal S128x4096 .f32)
    (P4 : Vec Ideal S1x4096 .f32) (p : Fin 128) (q : Fin 1) :
    Value.E5 (F := Ideal) P0 P1 P2 P3 P4 (ix2 p q)
      = message (Ideal.ofBits .f32 0x3F000000#32) (fun k => P0 (ix2 p k)) (fun k => P1 (ix2 p k)) (fun k => P3 (ix2 p k))
          (fun k => P2 (ix2 (0 : Fin 1) k)) (fun k => P4 (ix2 (0 : Fin 1) k)) := by
  have i0 : Value.ix5_0 (ix2 p q) = ix1 p := funext fun a => by match a with | ⟨0, _⟩ => rfl
  have i1 : Value.ix5_1 (ix2 p q) = ix1 p := funext fun a => by match a with | ⟨0, _⟩ => rfl
  unfold Value.E5 message
  rw [i0, i1, lane_sum, lane_sum]
  simp only [mulf_apply, spread_row]
  rfl

end Cert.EdgeMessage

end
-- ==== Proof.HostRows.lean ====
/-
  The two shared rows as the region finds them.

  Before the region the host lays the input vector out as a [1, 4096] row, and multiplies the [4096, 1] column
  of ratio weights, flattened, by the ratios, laying the product out as a [1, 4096] row too.  A flattening or
  a new unit axis keeps row-major order, so lane `k` of the first row is `input k` and lane `k` of the second
  is `llrWeight (k, 0) · llr k`.
-/
import proofs.«124301_j31817117729482_1_alg».proof.Proof.Gen.KernelIdeal.Frame
import proofs.«124301_j31817117729482_1_alg».proof.Proof.RowMessage
import Idealize.ShloMosaic.Lib.ValueLayout
import Idealize.ShloMosaic.Lib.ValueIdx
import Idealize.ShloMosaic.Lib.StableHlo.Run

noncomputable section

namespace Cert.EdgeMessage

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- A [4096, 1] column flattened to [4096] reads at `k` the column's entry `(k, 0)`. -/
theorem flatten_column (x : FVec Ideal S4096x1 .f32) (k : Fin 4096) :
    shapeCast S4096 x shapeCasts_S4096x1_S4096 (ix1 k) = x (ix2 k (0 : Fin 1)) :=
  shapeCast_apply x shapeCasts_S4096x1_S4096 (ix1 k) (ix2 k (0 : Fin 1)) (by
    rw [Shape.rowMajor_val_two, Shape.rowMajor_val_one]
    show k.val * 1 + 0 = k.val
    omega)

/-- Lane `k` of the input row the region stages is `input k`. -/
theorem input_row (c : Dev nD) (k : Fin 4096) :
    V m c main_v0 (ix2 (0 : Fin 1) k) = m ((c : Thread nD τ).loc main_arg0) (ix1 k) := by
  have e : (V m c main_v0 : S1x4096.Idx → EReal)
      = shapeCast S1x4096 (m ((c : Thread nD τ).loc main_arg0)) shapeCasts_S4096_S1x4096 := by
    dsimp only [Gen.V, Gen.hostOps0]; after_results; rfl
  rw [e]
  exact shapeCast_a_1a_apply _ shapeCasts_S4096_S1x4096 (0 : Fin 1) k

/-- Lane `k` of the weighted-ratio row the region stages is `llrWeight (k, 0) · llr k`. -/
theorem wllr_row (c : Dev nD) (k : Fin 4096) :
    V m c main_v3 (ix2 (0 : Fin 1) k)
      = weightedRatio (m ((c : Thread nD τ).loc main_arg4)) (m ((c : Thread nD τ).loc main_arg3)) k := by
  have e : (V m c main_v3 : S1x4096.Idx → EReal)
      = shapeCast S1x4096 (mulf (F := Ideal) (s := S4096) (φ := .f32)
          (shapeCast S4096 (m ((c : Thread nD τ).loc main_arg4) : FVec Ideal S4096x1 .f32) shapeCasts_S4096x1_S4096)
          (m ((c : Thread nD τ).loc main_arg3) : FVec Ideal S4096 .f32)) shapeCasts_S4096_S1x4096 := by
    dsimp only [Gen.V, Gen.hostOps0]; after_results; rfl
  rw [e]
  refine (shapeCast_a_1a_apply _ shapeCasts_S4096_S1x4096 (0 : Fin 1) k).trans ?_
  rw [mulf_apply, flatten_column]
  rfl

end Cert.EdgeMessage

end
-- ==== Proof.ResultArray.lean ====
/-
  From the blocks to the whole result.

  The grid has 32 points; point `t` holds rows `128·t … 128·t + 127` of each matrix at full width, both shared
  rows whole, and writes back rows `128·t … 128·t + 127` of the one-column result.  An entry `(p, 0)` of the
  block it writes is the message of the block's row `p`, which is row `128·t + p` of the matrices: so the block
  is the array of messages read through the point's rectangle.  The 32 rectangles cover all 4096 rows — row
  `r` lies in the block of point `r / 128` — so the result array ends as the array of messages.
-/
import proofs.«124301_j31817117729482_1_alg».proof.Proof.Gen.KernelIdeal.Value
import proofs.«124301_j31817117729482_1_alg».proof.Proof.BlockRows
import proofs.«124301_j31817117729482_1_alg».proof.Proof.HostRows

noncomputable section

namespace Cert.EdgeMessage

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- What the body leaves in the result's block, at entry `(p, 0)`, over arbitrary input blocks: the message of
    row `p` of the three matrix blocks against the two rows. -/
theorem point_entry (x0 x1 x2 : Vec Ideal S128x4096 .f32) (x3 x4 : Vec Ideal S1x4096 .f32) (p : Fin 128) (q : Fin 1) :
    out0_5 x0 x1 x2 x3 x4 (ix2 p q)
      = message (Ideal.ofBits .f32 0x3F000000#32) (fun k => x0 (ix2 p k)) (fun k => x1 (ix2 p k)) (fun k => x2 (ix2 p k))
          (fun k => x3 (ix2 (0 : Fin 1) k)) (fun k => x4 (ix2 (0 : Fin 1) k)) := by
  unfold out0_5
  simp only [View.ld_unit_zero (S := S128x4096) origin_zero, View.ld_unit_zero (S := S1x4096) origin_zero]
  rw [Value.canon5_eq, block_entry]

/-- The block indices over the 32 grid points: the three matrices' blocks move down with the result's block and
    sit at column block 0; the two rows never move; the result has one column block and 32 row blocks. -/
theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 31 :=
  (by decide +kernel : ∀ t : Fin grid0.N, _)

/-- Every one of the 32 row blocks of the result is some point's. -/
theorem block_onto : ∀ q0 : Fin 32, ∃ t : Fin cfg0.N, win0_5.index t = ![q0.val, 0] :=
  (by decide +kernel : ∀ q0 : Fin 32, ∃ t : Fin grid0.N, win0_5.index t = ![q0.val, 0])

/-- Row `p` of the mask's block at point `t` is the mask's row under entry `(p, 0)` of the result's block. -/
theorem mask_block (c : Dev nD) (t : Fin cfg0.N) (p : Fin 128) (q : Fin 1) (k : Fin 4096) :
    iblk m c 0 t (ix2 p k)
      = m ((c : Thread nD τ).loc main_arg2) (ix2 (rowOf (((cfg0.win 5).blk t).view.emb (ix2 p q))) k) := by
  obtain ⟨e0, e1, -⟩ := block_indices t
  show V m c main_arg2 (((cfg0.win 0).blk t).view.emb (ix2 p k)) = _
  rw [V_main_arg2]
  refine congrArg _ (funext fun a => Fin.ext ?_)
  match a with
  | ⟨0, _⟩ => show win0_0.index t (0 : Fin 2) * 128 + 1 * p.val = win0_5.index t (0 : Fin 2) * 128 + 1 * p.val; omega
  | ⟨1, _⟩ => show win0_0.index t (1 : Fin 2) * 4096 + 1 * k.val = k.val; omega

/-- The same for the weights' block … -/
theorem weight_block (c : Dev nD) (t : Fin cfg0.N) (p : Fin 128) (q : Fin 1) (k : Fin 4096) :
    iblk m c 1 t (ix2 p k)
      = m ((c : Thread nD τ).loc main_arg1) (ix2 (rowOf (((cfg0.win 5).blk t).view.emb (ix2 p q))) k) := by
  obtain ⟨-, -, e0, e1, -⟩ := block_indices t
  show V m c main_arg1 (((cfg0.win 1).blk t).view.emb (ix2 p k)) = _
  rw [V_main_arg1]
  refine congrArg _ (funext fun a => Fin.ext ?_)
  match a with
  | ⟨0, _⟩ => show win0_1.index t (0 : Fin 2) * 128 + 1 * p.val = win0_5.index t (0 : Fin 2) * 128 + 1 * p.val; omega
  | ⟨1, _⟩ => show win0_1.index t (1 : Fin 2) * 4096 + 1 * k.val = k.val; omega

/-- … and for the expander's. -/
theorem expander_block (c : Dev nD) (t : Fin cfg0.N) (p : Fin 128) (q : Fin 1) (k : Fin 4096) :
    iblk m c 2 t (ix2 p k)
      = m ((c : Thread nD τ).loc main_arg5) (ix2 (rowOf (((cfg0.win 5).blk t).view.emb (ix2 p q))) k) := by
  obtain ⟨-, -, -, -, e0, e1, -⟩ := block_indices t
  show V m c main_arg5 (((cfg0.win 2).blk t).view.emb (ix2 p k)) = _
  rw [V_main_arg5]
  refine congrArg _ (funext fun a => Fin.ext ?_)
  match a with
  | ⟨0, _⟩ => show win0_2.index t (0 : Fin 2) * 128 + 1 * p.val = win0_5.index t (0 : Fin 2) * 128 + 1 * p.val; omega
  | ⟨1, _⟩ => show win0_2.index t (1 : Fin 2) * 4096 + 1 * k.val = k.val; omega

/-- The input row's one block is the whole row: lane `k` is `input k` at every point. -/
theorem input_block (c : Dev nD) (t : Fin cfg0.N) (k : Fin 4096) :
    iblk m c 3 t (ix2 (0 : Fin 1) k) = m ((c : Thread nD τ).loc main_arg0) (ix1 k) := by
  obtain ⟨-, -, -, -, -, -, e0, e1, -⟩ := block_indices t
  refine Eq.trans ?_ (input_row m c k)
  show V m c main_v0 (((cfg0.win 3).blk t).view.emb (ix2 (0 : Fin 1) k)) = _
  refine congrArg _ (funext fun a => Fin.ext ?_)
  match a with
  | ⟨0, _⟩ => show win0_3.index t (0 : Fin 2) * 1 + 1 * 0 = 0; omega
  | ⟨1, _⟩ => show win0_3.index t (1 : Fin 2) * 4096 + 1 * k.val = k.val; omega

/-- The weighted-ratio row likewise: lane `k` is the weighted ratio of variable `k`. -/
theorem wllr_block (c : Dev nD) (t : Fin cfg0.N) (k : Fin 4096) :
    iblk m c 4 t (ix2 (0 : Fin 1) k)
      = weightedRatio (m ((c : Thread nD τ).loc main_arg4)) (m ((c : Thread nD τ).loc main_arg3)) k := by
  obtain ⟨-, -, -, -, -, -, -, -, e0, e1, -⟩ := block_indices t
  refine Eq.trans ?_ (wllr_row m c k)
  show V m c main_v3 (((cfg0.win 4).blk t).view.emb (ix2 (0 : Fin 1) k)) = _
  refine congrArg _ (funext fun a => Fin.ext ?_)
  match a with
  | ⟨0, _⟩ => show win0_4.index t (0 : Fin 2) * 1 + 1 * 0 = 0; omega
  | ⟨1, _⟩ => show win0_4.index t (1 : Fin 2) * 4096 + 1 * k.val = k.val; omega

/-- What point `t` writes back is the array of messages read through the point's rectangle. -/
theorem flushed_messages (c : Dev nD) (t : Fin cfg0.N) :
    (dats m 0 c).flushed 5 t = ((cfg0.win 5).blk t).view.read (Elt Ideal)
      (messages (Ideal.ofBits .f32 0x3F000000#32) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))) := by
  rw [Value.flushed5]
  refine funext fun (j : S128x1.Idx) => ?_
  obtain ⟨p, q, rfl⟩ : ∃ (p : Fin 128) (q : Fin 1), j = ix2 p q := ⟨j 0, j 1, eq_ix2 j⟩
  show out0_5 (iblk m c 0 t) (iblk m c 1 t) (iblk m c 2 t) (iblk m c 3 t) (iblk m c 4 t) (ix2 p q)
    = messages _ _ _ _ _ _ _ (((cfg0.win 5).blk t).view.emb (ix2 p q))
  refine (point_entry (iblk m c 0 t) (iblk m c 1 t) (iblk m c 2 t) (iblk m c 3 t) (iblk m c 4 t) p q).trans ?_
  unfold messages
  rw [funext (mask_block m c t p q), funext (weight_block m c t p q), funext (expander_block m c t p q),
    funext (input_block m c t), funext (wllr_block m c t)]

/-- An entry of the result lies in point `t`'s rectangle iff each coordinate lies in the rectangle's range. -/
theorem mem_block (t : Fin cfg0.N) (i : S4096x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v4).slice (win0_5.rect t)).set ↔ _
  rw [View.set_slice_whole, Rect.mem_set_unit]
  exact Iff.rfl

/-- Every entry of the result is in some point's rectangle: row `r` in that of point `r / 128`. -/
theorem covered (i : S4096x1.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  obtain ⟨t, ht⟩ := block_onto ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 1 ≤ (i 1).val ∧ (i 1).val < win0_5.index t (1 : Fin 2) * 1 + 1; omega

/-- The result array after the run is the array of messages. -/
theorem final_messages (c : Dev nD) :
    (dats m 0 c).arrAt 5 cfg0.N
      = messages (Ideal.ofBits .f32 0x3F000000#32) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) :=
  (dats m 0 c).arrAt_eq_of_cover 5 _ (fun t _ => flushed_messages m c t) covered

/-- The kernel's run: every weakly fair execution ends with the result array holding every edge's message and
    the six arguments as they were. -/
theorem kernel_run : θ_run defs (onTc (τ := τ) (main (F := Ideal))) ⟨m, fun _ => 0, ρ⟩ fun r => ∀ c : Dev nD,
      r.2.mem ((c : Thread nD τ).loc main_v4)
        = messages (Ideal.ofBits .f32 0x3F000000#32) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_messages m c), (h c).2⟩) (Value.run_blocks m ρ)

end Cert.EdgeMessage

end
-- ==== Proof.lean ====
/-
  The kernel and its reference compute the same edge messages.

  For each of the 4096 edges `r` of the graph both programs return

      0.5 · ( Σ_k (mask r k · weight r k) · input k  +  Σ_k expander r k · (llrWeight k · llr k) ),

  the sums over the 4096 variables `k`, as a [4096, 1] column.  The reference forms the two sums as
  matrix–column products and adds the expander's first; the kernel walks the rows in 32 blocks of 128, forms
  both sums for a block as lane sums of entrywise products, and adds the masked one first.  Read on the
  extended reals the two results differ by the order of one addition, which is commutative there without any
  condition: the inputs' finiteness is not used.

  The three runs terminate without a fault and leave the arguments as they were; the kernel's idealized text
  is its own text read exactly (no operation was rewritten), so that conjunct is trivial; and the two results
  agree entry by entry: RowMessage.lean states one edge's message, ReferenceRows.lean reads the reference's
  result as it, BlockRows.lean and HostRows.lean read a block of the kernel's result and the two rows the
  host prepares for it, and ResultArray.lean assembles the blocks into the whole column.
-/
import proofs.«124301_j31817117729482_1_alg».proof.Defs
import proofs.«124301_j31817117729482_1_alg».proof.Proof.Gen.Kernel
import proofs.«124301_j31817117729482_1_alg».proof.Proof.Gen.Kernel.Skeleton
import proofs.«124301_j31817117729482_1_alg».proof.Proof.Gen.Kernel.Launch
import proofs.«124301_j31817117729482_1_alg».proof.Proof.Gen.Kernel.Points
import proofs.«124301_j31817117729482_1_alg».proof.Proof.Gen.Kernel.Frame
import proofs.«124301_j31817117729482_1_alg».proof.Proof.Gen.KernelIdeal
import proofs.«124301_j31817117729482_1_alg».proof.Proof.Gen.KernelIdeal.Skeleton
import proofs.«124301_j31817117729482_1_alg».proof.Proof.Gen.KernelIdeal.Launch
import proofs.«124301_j31817117729482_1_alg».proof.Proof.Gen.KernelIdeal.Points
import proofs.«124301_j31817117729482_1_alg».proof.Proof.Gen.KernelIdeal.Frame
import proofs.«124301_j31817117729482_1_alg».proof.Proof.Gen.ReferenceIdeal
import proofs.«124301_j31817117729482_1_alg».proof.Proof.Gen.Pre_finite_inputs
import proofs.«124301_j31817117729482_1_alg».proof.Proof.Gen.KernelIdeal.Value
import proofs.«124301_j31817117729482_1_alg».proof.Proof.Gen.ReferenceIdeal.Run
import proofs.«124301_j31817117729482_1_alg».proof.Proof.Gen.ReferenceIdeal.Read
import proofs.«124301_j31817117729482_1_alg».proof.Proof.ReferenceRows
import proofs.«124301_j31817117729482_1_alg».proof.Proof.ResultArray
import Idealize.ShloMosaic.Adequacy
import Idealize.ShloMosaic.Init

noncomputable section

namespace Cert.Proof

open Idealize.ShloMosaic Idealize.SL.Sem Cert.Kernel

/-- The kernel as printed runs to the end and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the column of edge messages of those arguments. -/
theorem algebraic : Cert.algebraic_KernelIdeal_ReferenceIdeal := by
  intro m ρ m' ρ' _ hagree
  refine ⟨_, Cert.EdgeMessage.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v8_eq, Cert.EdgeMessage.reference_messages, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
